-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x256 : Shape := ⟨2, ![500000, 256]⟩
abbrev S128x256 : Shape := ⟨2, ![128, 256]⟩
abbrev S_ : Shape := ⟨0, ![]⟩

class Facts : Prop where
  bcast_S_S500000x256 : S_.BroadcastsInDim S500000x256 (![] : Fin 0 → Fin S500000x256.rank)
  reducesTo_S500000x256_S_d0_1 : S500000x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_

variable [Facts]

def fn {F : FTy → Type} [FloatOps F] (main_arg0 : FVec F S500000x256 .f32) (main_arg1 : FVec F S128x256 .f32) : IVec S_ 1 :=
  let main_v0 : FVec F S500000x256 .f32 := Host.absf main_arg0
  let main_cst : FVec F S_ .f32 := constant S_ .f32 0x7F800000#32
  let main_v1 : FVec F S500000x256 .f32 := broadcastInDim S500000x256 ![] bcast_S_S500000x256 main_cst
  let main_v2 : IVec S500000x256 1 := cmpf .olt main_v0 main_v1
  let main_c : IVec S_ 1 := constantI S_ 1 1#1
  let main_v3 : IVec S_ 1 := (fun x v => Host.reduce IntOp.andi x v reducesTo_S500000x256_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  main_v8
-- ==== Kernel.lean ====
abbrev S500000x256 : Shape := ⟨2, ![500000, 256]⟩
abbrev S128x256 : Shape := ⟨2, ![128, 256]⟩
abbrev S2x1x256 : Shape := ⟨3, ![2, 1, 256]⟩
abbrev S10000x256 : Shape := ⟨2, ![10000, 256]⟩
abbrev S1x1x256 : Shape := ⟨3, ![1, 1, 256]⟩
abbrev S1000x256 : Shape := ⟨2, ![1000, 256]⟩
abbrev S256 : Shape := ⟨1, ![256]⟩
abbrev S1x256 : Shape := ⟨2, ![1, 256]⟩
abbrev S2x256 : Shape := ⟨2, ![2, 256]⟩
abbrev S_ : Shape := ⟨0, ![]⟩
abbrev S256x128 : Shape := ⟨2, ![256, 128]⟩
abbrev S1x128 : Shape := ⟨2, ![1, 128]⟩

abbrev nBuf : Space → Nat
  | .hbm => 9
  | .vmem => 5
  | .smem => 0
  | _ => 0

abbrev bufTy : (tb : Table) → Fin (tcTables nBuf tb) → BufTy
  | .hbm, ⟨0, _⟩ => ⟨S500000x256, .f32⟩
  | .hbm, ⟨1, _⟩ => ⟨S128x256, .f32⟩
  | .hbm, ⟨2, _⟩ => ⟨S2x1x256, .f32⟩
  | .hbm, ⟨3, _⟩ => ⟨S2x256, .f32⟩
  | .hbm, ⟨4, _⟩ => ⟨S_, .f32⟩
  | .hbm, ⟨5, _⟩ => ⟨S256, .f32⟩
  | .hbm, ⟨6, _⟩ => ⟨S1x256, .f32⟩
  | .hbm, ⟨7, _⟩ => ⟨S256x128, .f32⟩
  | .hbm, ⟨8, _⟩ => ⟨S1x128, .f32⟩
  | .local _ .vmem, ⟨0, _⟩ => ⟨S10000x256, .f32⟩
  | .local _ .vmem, ⟨1, _⟩ => ⟨S10000x256, .f32⟩
  | .local _ .vmem, ⟨2, _⟩ => ⟨S1x1x256, .f32⟩
  | .local _ .vmem, ⟨3, _⟩ => ⟨S1x1x256, .f32⟩
  | .local _ .vmem, ⟨4, _⟩ => ⟨S1x1x256, .f32⟩
  | _, _ => ⟨S500000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 25], ![false, false]⟩

def k0_mult1 : BitVec 32 :=
  let c0_i32_1 : BitVec 32 := 0#32
  let c1000_i32 : BitVec 32 := 1000#32
  let v3 : BitVec 32 := Scalar.muli c0_i32_1 c1000_i32
  v3
def k0_off1 (c0_i32_1 : BitVec 32) : Fin 2 → Nat :=
  let c1000_i32 : BitVec 32 := 1000#32
  let v3 : BitVec 32 := Scalar.muli c0_i32_1 c1000_i32
  let v4 : BitVec 32 := v3
  let v5 : Index := Scalar.indexCast v4
  let c0 : Index := 0#32
  ![v5.toNat, 0]
def k0_mult2 : BitVec 32 :=
  let c1_i32 : BitVec 32 := 1#32
  let c1000_i32_8 : BitVec 32 := 1000#32
  let v15 : BitVec 32 := Scalar.muli c1_i32 c1000_i32_8
  v15
def k0_mult3 : BitVec 32 :=
  let c2_i32 : BitVec 32 := 2#32
  let c1000_i32_17 : BitVec 32 := 1000#32
  let v27 : BitVec 32 := Scalar.muli c2_i32 c1000_i32_17
  v27
def k0_mult4 : BitVec 32 :=
  let c3_i32 : BitVec 32 := 3#32
  let c1000_i32_26 : BitVec 32 := 1000#32
  let v39 : BitVec 32 := Scalar.muli c3_i32 c1000_i32_26
  v39
def k0_mult5 : BitVec 32 :=
  let c4_i32 : BitVec 32 := 4#32
  let c1000_i32_35 : BitVec 32 := 1000#32
  let v51 : BitVec 32 := Scalar.muli c4_i32 c1000_i32_35
  v51
def k0_mult6 : BitVec 32 :=
  let c5_i32 : BitVec 32 := 5#32
  let c1000_i32_44 : BitVec 32 := 1000#32
  let v63 : BitVec 32 := Scalar.muli c5_i32 c1000_i32_44
  v63
def k0_mult7 : BitVec 32 :=
  let c6_i32 : BitVec 32 := 6#32
  let c1000_i32_53 : BitVec 32 := 1000#32
  let v75 : BitVec 32 := Scalar.muli c6_i32 c1000_i32_53
  v75
def k0_mult8 : BitVec 32 :=
  let c7_i32 : BitVec 32 := 7#32
  let c1000_i32_62 : BitVec 32 := 1000#32
  let v87 : BitVec 32 := Scalar.muli c7_i32 c1000_i32_62
  v87
def k0_mult9 : BitVec 32 :=
  let c8_i32 : BitVec 32 := 8#32
  let c1000_i32_71 : BitVec 32 := 1000#32
  let v99 : BitVec 32 := Scalar.muli c8_i32 c1000_i32_71
  v99
def k0_mult10 : BitVec 32 :=
  let c9_i32 : BitVec 32 := 9#32
  let c1000_i32_80 : BitVec 32 := 1000#32
  let v111 : BitVec 32 := Scalar.muli c9_i32 c1000_i32_80
  v111
def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S1x1x256_S1x1x256_0_0_0 : ∀ a, (![0, 0, 0] : Fin 3 → Nat) a + S1x1x256.size a ≤ S1x1x256.size a
  h_S1x1x256 : 0 < S1x1x256.numel
  shapeCasts_S1x1x256_S1x1x256 : S1x1x256.ShapeCasts S1x1x256
  h_S1000x256 : 0 < S1000x256.numel
  reduces_S1000x256_S256 : S1000x256.Reduces [0] S256
  shapeCasts_S256_S1x256 : S256.ShapeCasts S1x256
  shapeCasts_S1x256_S1x1x256 : S1x256.ShapeCasts S1x1x256
  shapeCasts_S2x1x256_S2x256 : S2x1x256.ShapeCasts S2x256
  reducesTo_S2x256_S256_d0 : S2x256.ReducesTo [0] S256
  h_S_ : 0 < S_.numel
  bcast_S256_S1x256_1 : S256.BroadcastsInDim S1x256 (![1] : Fin 1 → Fin S1x256.rank)
  transposes_S128x256_S256x128_1_0 : S128x256.Transposes [1, 0] S256x128
  dot_S1x256_S256x128_S1x128_1_0_0_1_n_n_wf : DotDims.WF S1x256 S256x128 S1x128 [1] [0] [0] [1] [] []
  hrank0 : 0 < grid0.rank
  k0_mult1_dvd : 1000 ∣ k0_mult1.toNat
  k0_off1_inb : ∀ (r : Fin 10), ∀ a, (k0_off1 (BitVec.ofNat 32 r.val)) a + S1000x256.size a ≤ S10000x256.size a
  k0_mult2_dvd : 1000 ∣ k0_mult2.toNat
  k0_mult3_dvd : 1000 ∣ k0_mult3.toNat
  k0_mult4_dvd : 1000 ∣ k0_mult4.toNat
  k0_mult5_dvd : 1000 ∣ k0_mult5.toNat
  k0_mult6_dvd : 1000 ∣ k0_mult6.toNat
  k0_mult7_dvd : 1000 ∣ k0_mult7.toNat
  k0_mult8_dvd : 1000 ∣ k0_mult8.toNat
  k0_mult9_dvd : 1000 ∣ k0_mult9.toNat
  k0_mult10_dvd : 1000 ∣ k0_mult10.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S500000x256.size a
  hwx0_0 : ∀ i : grid0.Coords, EltTy.bits .f32 = 32 ∨ (Rect.block (s := S500000x256) S10000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x256.size a ≤ S2x1x256.size a
  hwx0_1 : ∀ i : grid0.Coords, EltTy.bits .f32 = 32 ∨ (Rect.block (s := S2x1x256) S1x1x256.size (cc0_transform_1 i) (hinb0_1 i)).WholeWords (EltTy.packing .f32)

variable [Facts₀]

def dot_S1x256_S256x128_S1x128_1_0_0_1_n_n : DotDims S1x256 S256x128 S1x128 where
  lhsContracting := [1]
  rhsContracting := [0]
  lhsNonContracting := [0]
  rhsNonContracting := [1]
  lhsBatch := []
  rhsBatch := []
  wf := dot_S1x256_S256x128_S1x128_1_0_0_1_n_n_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S500000x256 : Shape := ⟨2, ![500000, 256]⟩
abbrev S128x256 : Shape := ⟨2, ![128, 256]⟩
abbrev S500000x128 : Shape := ⟨2, ![500000, 128]⟩
abbrev S_ : Shape := ⟨0, ![]⟩
abbrev S128 : Shape := ⟨1, ![128]⟩
abbrev S1x128 : Shape := ⟨2, ![1, 128]⟩

abbrev nBuf : Space → Nat
  | .hbm => 6
  | .vmem => 0
  | .smem => 0
  | _ => 0

abbrev bufTy : (tb : Table) → Fin (tcTables nBuf tb) → BufTy
  | .hbm, ⟨0, _⟩ => ⟨S500000x256, .f32⟩
  | .hbm, ⟨1, _⟩ => ⟨S128x256, .f32⟩
  | .hbm, ⟨2, _⟩ => ⟨S500000x128, .f32⟩
  | .hbm, ⟨3, _⟩ => ⟨S_, .f32⟩
  | .hbm, ⟨4, _⟩ => ⟨S128, .f32⟩
  | .hbm, ⟨5, _⟩ => ⟨S1x128, .f32⟩
  | _, _ => ⟨S500000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  reducesTo_S500000x128_S128_d0 : S500000x128.ReducesTo [0] S128
  h_S_ : 0 < S_.numel
  bcast_S128_S1x128_1 : S128.BroadcastsInDim S1x128 (![1] : Fin 1 → Fin S1x128.rank)
  dot_S500000x256_S128x256_S500000x128_1_1_0_0_n_n_wf : DotDims.WF S500000x256 S128x256 S500000x128 [1] [1] [0] [0] [] []

variable [Facts₀]

def dot_S500000x256_S128x256_S500000x128_1_1_0_0_n_n : DotDims S500000x256 S128x256 S500000x128 where
  lhsContracting := [1]
  rhsContracting := [1]
  lhsNonContracting := [0]
  rhsNonContracting := [0]
  lhsBatch := []
  rhsBatch := []
  wf := dot_S500000x256_S128x256_S500000x128_1_1_0_0_n_n_wf

class Facts : Prop extends Facts₀ where

variable [Facts]
-- ==== Proof.LibCoveredLoad.lean ====
/-
  A general fact about a buffer that is overwritten whole and then read whole.

  A kernel that keeps a running total in a scratch buffer stores the whole buffer, loads the whole buffer, adds, and
  stores the whole buffer again. Whatever the earlier stores were, a load of the whole buffer sees exactly the value
  of the LATEST whole store: every index of the buffer lies in that store's rectangle, so the earlier stores are
  hidden at every index.
-/
import Idealize.ShloMosaic.Lib.Pipeline.Value

noncomputable section

namespace Idealize.ShloMosaic.View

variable {Val : EltTy → Type} {S : Shape} {e : EltTy}

/-- A load through the whole-shape rectangle at zero offsets, after a list of stores whose LATEST one went through
    that same rectangle, reads the latest store's value; the earlier stores `L` do not matter. (With `L = []` this is
    the one-store case.) -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  rw [readCov_eq_canon_ld _ _ _ (fun y => ⟨_, List.mem_cons.mpr (Or.inl rfl), mem_set_unit_zero h inb y⟩),
    canon_cons_unit_zero h, ld_unit_zero h]

end Idealize.ShloMosaic.View

end
-- ==== Proof.PoolBody.lean ====
/-
  One grid point of the pooling kernel, as a value.

  At a grid point the body holds a block `x0` of ten thousand rows of `x` and a scratch row `acc` of 256 lanes.
  Ten times over it loads the next thousand rows of the block, sums them lane by lane, adds the sums to the
  scratch row and stores the scratch row whole; at the end it copies the scratch row to the output block. Every
  load of the scratch row comes after a store that wrote it whole, so it sees that store's value: the scratch row
  after the point is the ten additions nested, `step acc x0`. At the first point of a core's run (`i₁ = 0`) the
  scratch row is first overwritten with zeros, so there `acc` is the zero row whatever the scratch held before; at
  the other points `acc` is what the point before left.
-/
import proofs.«170874_j66735201845341_2_alg».proof.Proof.Gen.KernelIdeal.Frame
import proofs.«170874_j66735201845341_2_alg».proof.Proof.LibCoveredLoad
import Idealize.ShloMosaic.Lib.Pipeline.Value
import Idealize.ShloMosaic.Lib.Tactic

set_option maxRecDepth 16384

noncomputable section

namespace Cert.KernelIdeal.Pool

open Idealize.ShloMosaic Idealize.ShloMosaic.TcCoe Idealize.SL.Sem
open Cert.KernelIdeal Cert.KernelIdeal.Gen

variable {F : FTy → Type} [FloatOps F]

theorem hz3 : (![0, 0, 0] : Fin 3 → Nat) = fun _ => 0 := funext fun a => by fin_cases a <;> rfl

/-- A thousand consecutive rows of a block of ten thousand, from row `off 0`. -/
abbrev rows (x0 : Vec F S10000x256 .f32) (off : Fin 2 → Nat)
    (h : ∀ a, off a + S1000x256.size a ≤ S10000x256.size a) : Vec F S1000x256 .f32 :=
  View.ld x0 (Rect.unit off S1000x256.size h)

/-- The scratch row after a point that found it at `acc`: the ten chunks' lane sums added to it, first chunk
    innermost. (The eighth chunk's sum and the fifth addition each come in two parts: `k0_pay10` inside
    `k0_pay11`, `k0_pay6` inside `k0_pay7`.) -/
def step (acc : Vec F S1x1x256 .f32) (x0 : Vec F S10000x256 .f32) : Vec F S1x1x256 .f32 :=
  k0_pay13 (rows x0 ![9000, 0] (by decide))
    (k0_pay12 (rows x0 ![8000, 0] (by decide))
      (k0_pay11 (k0_pay10 (rows x0 ![7000, 0] (by decide)))
        (k0_pay9 (rows x0 ![6000, 0] (by decide))
          (k0_pay8 (rows x0 ![5000, 0] (by decide))
            (k0_pay7 (k0_pay6 (rows x0 ![4000, 0] (by decide))
              (k0_pay5 (rows x0 ![3000, 0] (by decide))
                (k0_pay4 (rows x0 ![2000, 0] (by decide))
                  (k0_pay3 (rows x0 ![1000, 0] (by decide))
                    (k0_pay2 (rows x0 ![0, 0] (by decide)) acc))))))))))

/-- A point that is not the first of its core's run leaves the scratch row at `step` of what it found. -/
theorem scratch_later (c : Dev nD) (i : grid0.Coords) (a2 : Memref sig .tc .vmem S10000x256 .f32) (h2 : a2.IsWhole)
    (a3 : Memref sig .tc .vmem S1x1x256 .f32) (h3 : a3.IsWhole) (a4 : Memref sig .tc .vmem S1x1x256 .f32)
    (h4 : a4.IsWhole) (hc : ¬cond0_0 i) (x0 : Vec F S10000x256 .f32) (xs : Vec F S1x1x256 .f32) :
    sout0_B_0 c i a2 h2 a3 h3 a4 h4 hc x0 xs = step xs x0 := by
  unfold sout0_B_0
  rw [View.read_writes_eq_canon _ _ _ (scover0_B_0 c i a2 h2 a3 h3 a4 h4 hc x0 xs)]
  unfold kernelRun0_B
  dsimp only
  sl_unfold_words
  simp only [View.canon_cons_unit_zero (S := S1x1x256) hz3, View.canon_unit_zero (S := S1x1x256) hz3,
    View.readCov_cons_unit_zero (S := S1x1x256) _ hz3, View.readCov_unit_zero (S := S1x1x256) _ hz3,
    View.readAt_eq_ld, h2.read_unread, h4.read_unread, View.ld_unit_zero (S := S1x1x256) hz3]
  rfl

/-- … and copies the same row to the output block. -/
theorem out_later (c : Dev nD) (i : grid0.Coords) (a2 : Memref sig .tc .vmem S10000x256 .f32) (h2 : a2.IsWhole)
    (a3 : Memref sig .tc .vmem S1x1x256 .f32) (h3 : a3.IsWhole) (a4 : Memref sig .tc .vmem S1x1x256 .f32)
    (h4 : a4.IsWhole) (hc : ¬cond0_0 i) (x0 : Vec F S10000x256 .f32) (xs : Vec F S1x1x256 .f32) :
    out0_B_1 c i a2 h2 a3 h3 a4 h4 hc x0 xs = step xs x0 := by
  unfold out0_B_1
  rw [View.read_writes_eq_canon _ _ _ (cover0_B_1 c i a2 h2 a3 h3 a4 h4 hc x0 xs)]
  unfold kernelRun0_B
  dsimp only
  sl_unfold_words
  simp only [View.canon_cons_unit_zero (S := S1x1x256) hz3, View.canon_unit_zero (S := S1x1x256) hz3,
    View.readCov_cons_unit_zero (S := S1x1x256) _ hz3, View.readCov_unit_zero (S := S1x1x256) _ hz3,
    View.readAt_eq_ld, h2.read_unread, h4.read_unread, View.ld_unit_zero (S := S1x1x256) hz3]
  rfl

/-- The first point of a core's run leaves the scratch row at `step` of the zero row it stores first. -/
theorem scratch_first (c : Dev nD) (i : grid0.Coords) (a2 : Memref sig .tc .vmem S10000x256 .f32) (h2 : a2.IsWhole)
    (a3 : Memref sig .tc .vmem S1x1x256 .f32) (h3 : a3.IsWhole) (a4 : Memref sig .tc .vmem S1x1x256 .f32)
    (h4 : a4.IsWhole) (hc : cond0_0 i) (x0 : Vec F S10000x256 .f32) :
    sout0_A_0 c i a2 h2 a3 h3 a4 h4 hc x0 = step k0_pay1 x0 := by
  unfold sout0_A_0
  rw [View.read_writes_eq_canon _ _ _ (scover0_A_0 c i a2 h2 a3 h3 a4 h4 hc x0)]
  unfold kernelRun0_A
  dsimp only
  sl_unfold_words
  simp only [View.canon_cons_unit_zero (S := S1x1x256) hz3, View.canon_unit_zero (S := S1x1x256) hz3,
    View.readCov_cons_unit_zero (S := S1x1x256) _ hz3, View.readCov_unit_zero (S := S1x1x256) _ hz3,
    View.readAt_eq_ld, h2.read_unread, View.ld_unit_zero (S := S1x1x256) hz3]
  rfl

/-- … and copies the same row to the output block. -/
theorem out_first (c : Dev nD) (i : grid0.Coords) (a2 : Memref sig .tc .vmem S10000x256 .f32) (h2 : a2.IsWhole)
    (a3 : Memref sig .tc .vmem S1x1x256 .f32) (h3 : a3.IsWhole) (a4 : Memref sig .tc .vmem S1x1x256 .f32)
    (h4 : a4.IsWhole) (hc : cond0_0 i) (x0 : Vec F S10000x256 .f32) :
    out0_A_1 c i a2 h2 a3 h3 a4 h4 hc x0 = step k0_pay1 x0 := by
  unfold out0_A_1
  rw [View.read_writes_eq_canon _ _ _ (cover0_A_1 c i a2 h2 a3 h3 a4 h4 hc x0)]
  unfold kernelRun0_A
  dsimp only
  sl_unfold_words
  simp only [View.canon_cons_unit_zero (S := S1x1x256) hz3, View.canon_unit_zero (S := S1x1x256) hz3,
    View.readCov_cons_unit_zero (S := S1x1x256) _ hz3, View.readCov_unit_zero (S := S1x1x256) _ hz3,
    View.readAt_eq_ld, h2.read_unread, View.ld_unit_zero (S := S1x1x256) hz3]
  rfl

end Cert.KernelIdeal.Pool

end
-- ==== Proof.LibSumBlocks.lean ====
/-
  A finite sum taken block by block.

  A sum of `m * n` terms in a commutative additive monoid is the sum, over `m` consecutive blocks, of
  each block's `n` terms: term `b` of block `a` is term `b + n * a` of the whole. Only commutativity and
  associativity of the addition are used, so the law holds on the extended reals with no finiteness
  assumption: a contraction of length 4096 accumulated as 16 partial contractions of length 256 is the
  one contraction.
-/
import Mathlib.Algebra.BigOperators.Fin
import Mathlib.Logic.Equiv.Fin.Basic

namespace Cert.SumBlocks

open Finset

/-- The whole sum is the sum over blocks of the blocks' sums; `finProdFinEquiv (a, b)` is position
    `b` of block `a`. -/
theorem sum_blocks {M : Type*} [AddCommMonoid M] (m n : ℕ) (f : Fin (m * n) → M) :
    ∑ k : Fin (m * n), f k = ∑ a : Fin m, ∑ b : Fin n, f (finProdFinEquiv (a, b)) :=
  (Equiv.sum_comp finProdFinEquiv f).symm.trans (Fintype.sum_prod_type _)

/-- Position `b` of block `a` is term `b + n * a`. -/
theorem block_pos (m n : ℕ) (a : Fin m) (b : Fin n) :
    (finProdFinEquiv (a, b) : Fin (m * n)).val = b.val + n * a.val := rfl

end Cert.SumBlocks
-- ==== Proof.PoolAlgebra.lean ====
/-
  Pooling a projection, as algebra on the extended reals.

  The reference contracts every row of `x` with a row of `W` and then sums the results over the rows:
  `∑ᵣ ∑ₖ x r k · w k`. The kernel first sums the rows of `x` — as two halves, each half as 25 consecutive
  blocks of 10000 rows, each block as 10 chunks of 1000 rows, every partial sum started from zero — and only
  then contracts the one summed row with `w`: `∑ₖ (∑ᵣ x r k) · w k`.

  Regrouping a sum into consecutive blocks and dropping the zero summands use only that addition is commutative
  and associative with unit `0`, so they hold for all extended reals. Moving the factor `w k` across the sum
  over the rows is distributivity, which fails at the infinities (`(⊤ + ⊥) · w ≠ ⊤ · w + ⊥ · w`): there the
  entries are taken to be real numbers, and the identity is the one of the real numbers.
-/
import Mathlib.Data.EReal.Inv
import Mathlib.Algebra.BigOperators.Fin
import proofs.«170874_j66735201845341_2_alg».proof.Proof.LibSumBlocks

namespace Cert.PoolAlgebra

open Finset

/-- The embedding of the reals into the extended reals commutes with finite sums. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The first `m * n` terms of a sequence, summed as `m` consecutive blocks of `n` terms: term `b` of block `a`
    is term `n * a + b`. -/
theorem sum_range_blocks {M : Type*} [AddCommMonoid M] (m n : ℕ) (f : ℕ → M) :
    ∑ r ∈ range (m * n), f r = ∑ a ∈ range m, ∑ b ∈ range n, f (n * a + b) := by
  rw [Finset.sum_range, Cert.SumBlocks.sum_blocks, Finset.sum_range (fun a => ∑ b ∈ range n, f (n * a + b))]
  refine Finset.sum_congr rfl fun a _ => ?_
  rw [Finset.sum_range (fun b => f (n * a.val + b))]
  refine Finset.sum_congr rfl fun b _ => ?_
  exact congrArg f ((Cert.SumBlocks.block_pos m n a b).trans (Nat.add_comm _ _))

/-- Ten terms added to `a` one after the other are `a` plus their sum. -/
theorem ten_added {M : Type*} [AddCommMonoid M] (a : M) (T : ℕ → M) :
    a + T 0 + T 1 + T 2 + T 3 + T 4 + T 5 + T 6 + T 7 + T 8 + T 9 = a + ∑ j ∈ range 10, T j := by
  simp only [Finset.sum_range_succ, Finset.sum_range_zero, zero_add, add_assoc]

/-- Ten chunks of a thousand rows are the ten thousand rows of a block. -/
theorem sum_chunks {M : Type*} [AddCommMonoid M] (f : ℕ → M) :
    ∑ j ∈ range 10, ∑ r ∈ range 1000, f (1000 * j + r) = ∑ r ∈ range 10000, f r :=
  (sum_range_blocks 10 1000 f).symm

/-- Two halves of 25 blocks of ten thousand rows are the five hundred thousand rows: row `r` of block `s` of
    half `c` is row `(25 c + s) · 10000 + r`. -/
theorem sum_halves_blocks {M : Type*} [AddCommMonoid M] (f : ℕ → M) :
    ∑ c ∈ range 2, ∑ s ∈ range 25, ∑ r ∈ range 10000, f ((25 * c + s) * 10000 + r)
      = ∑ r ∈ range 500000, f r := by
  rw [show (500000 : ℕ) = 2 * 250000 from rfl, sum_range_blocks 2 250000 f]
  refine Finset.sum_congr rfl fun c _ => ?_
  rw [show (250000 : ℕ) = 25 * 10000 from rfl, sum_range_blocks 25 10000 (fun b => f (25 * 10000 * c + b))]
  refine Finset.sum_congr rfl fun s _ => Finset.sum_congr rfl fun r _ => ?_
  exact congrArg f (by ring)

/-- THE LAW, for real entries: contracting the summed row with `w` is summing the rows' contractions,
    `∑ₖ (∑ᵣ x r k) · w k = ∑ᵣ ∑ₖ x r k · w k`. -/
theorem sum_mul_eq_sum_sum_mul {R K : Type*} [Fintype R] [Fintype K] (x : R → K → EReal) (w : K → EReal)
    (hx : ∀ r k, ∃ a : ℝ, x r k = (a : EReal)) (hw : ∀ k, ∃ b : ℝ, w k = (b : EReal)) :
    ∑ k, (∑ r, x r k) * w k = ∑ r, ∑ k, x r k * w k := by
  choose a ha using hx
  choose b hb using hw
  have dist : ∀ k, (∑ r, (a r k : EReal)) * (b k : EReal) = ∑ r, (a r k : EReal) * (b k : EReal) := by
    intro k
    rw [← coe_sum, ← EReal.coe_mul, Finset.sum_mul, coe_sum]
    simp only [EReal.coe_mul]
  rw [Finset.sum_comm]
  refine Finset.sum_congr rfl fun k _ => ?_
  simp only [ha, hb]
  exact dist k

end Cert.PoolAlgebra
-- ==== Proof.PoolStep.lean ====
/-
  One grid point of the pooling kernel, read lane by lane over the extended reals.

  Lane `k` of the scratch row gains, chunk by chunk, the thousand entries of the chunk's lane `k` (each chunk's sum
  is started from zero and reaches the row through two casts that only add unit axes); after the ten chunks it has
  gained the ten thousand entries of the block's lane `k`. Only commutativity and associativity of addition and
  `0 + a = a` are used: the statement holds for every extended real, infinite entries included.

  To keep sums free of bound proofs, an array `f` over `[n₀, n₁]` is extended by zero to all pairs of naturals
  (`ext f`); a sum over consecutive rows is then a sum over `Finset.range`.
-/
import proofs.«170874_j66735201845341_2_alg».proof.Proof.PoolBody
import proofs.«170874_j66735201845341_2_alg».proof.Proof.PoolAlgebra
import Idealize.ShloMosaic.Lib.ValueIdx
import Idealize.ShloMosaic.Lib.ValueLayout
import Idealize.ShloMosaic.PureOps.Ideal.Laws

set_option maxRecDepth 16384

noncomputable section

namespace Cert.KernelIdeal.Pool

open Idealize.ShloMosaic Idealize.ShloMosaic.TcCoe Idealize.SL.Sem Idealize.ShloMosaic.ValueIdx
open Cert.KernelIdeal Cert.KernelIdeal.Gen
open Finset

/-- An `[n₀, n₁]` array of extended reals as a function of two naturals, zero outside the array. -/
def ext {n0 n1 : ℕ} (f : (⟨2, ![n0, n1]⟩ : Shape).Idx → EReal) (r k : ℕ) : EReal :=
  if h : r < n0 ∧ k < n1 then f (ix2 ⟨r, h.1⟩ ⟨k, h.2⟩) else 0

theorem ext_apply {n0 n1 : ℕ} (f : (⟨2, ![n0, n1]⟩ : Shape).Idx → EReal) (r : Fin n0) (k : Fin n1) :
    ext f r.val k.val = f (ix2 r k) := by
  unfold ext; rw [dif_pos ⟨r.isLt, k.isLt⟩]

/-- A whole column of the array is the column of its extension. -/
theorem sum_col {n0 n1 : ℕ} (f : (⟨2, ![n0, n1]⟩ : Shape).Idx → EReal) (k : Fin n1) :
    ∑ r : Fin n0, f (ix2 r k) = ∑ r ∈ range n0, ext f r k.val := by
  rw [Finset.sum_range]
  exact Finset.sum_congr rfl fun r _ => (ext_apply f r k).symm

/-- The rows `o … o + 999` of a block, at `(r, k)`, are the block at `(o + r, k)`. -/
theorem rows_apply (x0 : Vec Ideal S10000x256 .f32) (o : ℕ) (h : ∀ a, (![o, 0] : Fin 2 → ℕ) a + S1000x256.size a ≤ S10000x256.size a)
    (r : Fin 1000) (k : Fin 256) : rows x0 ![o, 0] h (ix2 r k) = ext x0 (o + r.val) k.val := by
  have ho : o + 1000 ≤ 10000 := h 0
  have e : ext x0 (o + r.val) k.val = x0 (ix2 ⟨o + r.val, by have := r.isLt; omega⟩ k) := ext_apply x0 ⟨o + r.val, _⟩ k
  rw [e]
  show x0 _ = x0 _
  refine congrArg x0 (funext fun a => Fin.ext ?_)
  match a with
  | ⟨0, _⟩ => show o + 1 * r.val = o + r.val; omega
  | ⟨1, _⟩ => show 0 + 1 * k.val = k.val; omega

/-- ONE CHUNK: lane `k` of the scratch row gains the chunk's thousand entries of lane `k`. -/
theorem addChunk_apply (v : Vec Ideal S1000x256 .f32) (acc : Vec Ideal S1x1x256 .f32) (u w : Fin 1) (k : Fin 256) :
    k0_pay2 (F := Ideal) v acc (ix3 u w k) = acc (ix3 u w k) + ∑ r : Fin 1000, v (ix2 r k) := by
  unfold k0_pay2
  rw [shapeCast_self]
  refine congrArg (acc (ix3 u w k) + ·) ?_
  refine (shapeCast_ab_1ab_apply _ _ u w k).trans ?_
  refine (shapeCast_a_1a_apply _ _ w k).trans ?_
  refine (Ideal.multiReduction_add_single v 0x00000000#32 _ (.inl rfl) rfl (ix1 k)).trans ?_
  exact Finset.sum_congr rfl fun r _ => congrArg v (funext fun a => Fin.ext (by
    match a with
    | ⟨0, _⟩ => rfl
    | ⟨1, _⟩ => rfl))

section
variable {F : FTy → Type} [FloatOps F] (v : Vec F S1000x256 .f32) (acc : Vec F S1x1x256 .f32)

/-- The ten chunks' additions are one and the same function of the chunk and the scratch row (each occurrence has
    its own name; the fifth and the eighth come in two parts, which joined are that function again). -/
theorem pay3_eq : k0_pay3 v acc = k0_pay2 v acc := rfl
theorem pay4_eq : k0_pay4 v acc = k0_pay2 v acc := rfl
theorem pay5_eq : k0_pay5 v acc = k0_pay2 v acc := rfl
theorem pay7_pay6 : k0_pay7 (k0_pay6 v acc) = k0_pay2 v acc := rfl
theorem pay8_eq : k0_pay8 v acc = k0_pay2 v acc := rfl
theorem pay9_eq : k0_pay9 v acc = k0_pay2 v acc := rfl
theorem pay11_pay10 : k0_pay11 (k0_pay10 v) acc = k0_pay2 v acc := rfl
theorem pay12_eq : k0_pay12 v acc = k0_pay2 v acc := rfl
theorem pay13_eq : k0_pay13 v acc = k0_pay2 v acc := rfl

end

/-- ONE POINT: lane `k` of the scratch row gains the ten thousand entries of the block's lane `k`. -/
theorem step_apply (acc : Vec Ideal S1x1x256 .f32) (x0 : Vec Ideal S10000x256 .f32) (u w : Fin 1) (k : Fin 256) :
    step acc x0 (ix3 u w k) = acc (ix3 u w k) + ∑ r ∈ range 10000, ext x0 r k.val := by
  have c : ∀ (o : ℕ) (h) (a : Vec Ideal S1x1x256 .f32),
      k0_pay2 (F := Ideal) (rows x0 ![o, 0] h) a (ix3 u w k) = a (ix3 u w k) + ∑ r ∈ range 1000, ext x0 (o + r) k.val := by
    intro o h a
    rw [addChunk_apply, Finset.sum_range]
    exact congrArg (a (ix3 u w k) + ·) (Finset.sum_congr rfl fun r _ => rows_apply x0 o h r k)
  unfold step
  rw [pay13_eq, pay12_eq, pay11_pay10, pay9_eq, pay8_eq, pay7_pay6, pay5_eq, pay4_eq, pay3_eq]
  rw [c 9000, c 8000, c 7000, c 6000, c 5000, c 4000, c 3000, c 2000, c 1000, c 0]
  exact (PoolAlgebra.ten_added (acc (ix3 u w k)) (fun j => ∑ r ∈ range 1000, ext x0 (1000 * j + r) k.val)).trans
    (congrArg (acc (ix3 u w k) + ·) (PoolAlgebra.sum_chunks (fun r => ext x0 r k.val)))

end Cert.KernelIdeal.Pool

end
-- ==== Proof.PoolAccum.lean ====
/-
  The pooling kernel across its grid, over the extended reals: the array of per-core partial sums.

  The grid is 2 × 25: point `t = 25 c + s` holds rows `10000 t … 10000 t + 9999` of `x`. On each core's run of
  25 points the scratch row is zeroed at the first point and gains one block of ten thousand rows per point; the
  output block — row `c` of the `[2, 1, 256]` result — is a copy of the scratch row and is written back once,
  after the run's last point. So lane `k` of row `c` of the result is `0 + ∑ₛ ∑ᵣ x[(25 c + s)·10000 + r, k]`.
  The zero and the order of the additions are kept as the kernel has them; nothing here needs finite entries.
-/
import proofs.«170874_j66735201845341_2_alg».proof.Proof.PoolStep
import Idealize.ShloMosaic.Lib.Pipeline.Value

set_option maxRecDepth 16384

noncomputable section

namespace Cert.KernelIdeal.Pool

open Idealize.ShloMosaic Idealize.ShloMosaic.TcCoe Idealize.SL.Sem Idealize.ShloMosaic.ValueIdx
open Idealize.ShloMosaic.Pipeline (Dat)
open Cert.KernelIdeal Cert.KernelIdeal.Gen
open Finset

variable (m : (ℓ : Loc nD τ sig) → Buf (Elt Ideal) ℓ) (ρ : Dev nD → PrngReg)

/-- `x` as the program is launched with it. -/
abbrev X (c : Dev nD) : S500000x256.Idx → EReal := m ((c : Thread nD τ).loc main_arg0)

/-- The printed index maps, decided over the grid: the input block of point `t` is block `t` of the rows; the
    output block of point `t` is row `t / 25`. -/
theorem in_idx : ∀ t : Fin cfg0.N, win0_0.index t (0 : Fin 2) = t.val ∧ win0_0.index t (1 : Fin 2) = 0 :=
  (by decide +kernel : ∀ t : Fin grid0.N, _)

theorem out_idx : ∀ t : Fin cfg0.N, win0_1.index t (0 : Fin 3) = t.val / 25 ∧ win0_1.index t (1 : Fin 3) = 0
    ∧ win0_1.index t (2 : Fin 3) = 0 :=
  (by decide +kernel : ∀ t : Fin grid0.N, _)

/-- The block of point `t`, at `(r, k)`, is `x` at `(10000 t + r, k)`. -/
theorem iblk_apply (c : Dev nD) (t : Fin cfg0.N) (r : Fin 10000) (k : Fin 256) :
    (iblk m c 0 t : Vec Ideal S10000x256 .f32) (ix2 r k) = ext (X m c) (t.val * 10000 + r.val) k.val := by
  have hN : t.val < 50 := lt_of_lt_of_eq t.isLt (show cfg0.N = 50 from N_0)
  obtain ⟨e0, e1⟩ := in_idx t
  have e : ext (X m c) (t.val * 10000 + r.val) k.val
      = X m c (ix2 ⟨t.val * 10000 + r.val, by have := r.isLt; omega⟩ k) := ext_apply (X m c) ⟨_, _⟩ k
  rw [e]
  unfold iblk
  rw [View.read_apply]
  show V m c main_arg0 _ = m ((c : Thread nD τ).loc main_arg0) _
  refine congrArg (m ((c : Thread nD τ).loc main_arg0)) (funext fun a => Fin.ext ?_)
  match a with
  | ⟨0, _⟩ => show win0_0.index t (0 : Fin 2) * 10000 + 1 * r.val = t.val * 10000 + r.val; rw [e0]; omega
  | ⟨1, _⟩ => show win0_0.index t (1 : Fin 2) * 256 + 1 * k.val = k.val; rw [e1]; omega

/-- Lane `k` of the block of point `t` is rows `10000 t … 10000 t + 9999` of lane `k` of `x`. -/
theorem block_col (c : Dev nD) (t : Fin cfg0.N) (k : Fin 256) :
    ∑ r ∈ range 10000, ext (iblk m c 0 t : Vec Ideal S10000x256 .f32) r k.val
      = ∑ r ∈ range 10000, ext (X m c) (t.val * 10000 + r) k.val := by
  refine Finset.sum_congr rfl fun r hr => ?_
  have hr' : r < 10000 := Finset.mem_range.mp hr
  exact (ext_apply (iblk m c 0 t : Vec Ideal S10000x256 .f32) ⟨r, hr'⟩ k).trans (iblk_apply m c t ⟨r, hr'⟩ k)

/-- What point `n` adds to lane `k` of the scratch row: rows `10000 n … 10000 n + 9999` of lane `k` of `x`. -/
def addend (c : Dev nD) (n k : ℕ) : EReal := ∑ r ∈ range 10000, ext (X m c) (n * 10000 + r) k

/-- The zero row the first point of a run stores. -/
theorem zero_row (i : S1x1x256.Idx) : k0_pay1 (F := Ideal) i = 0 := by
  unfold k0_pay1
  rw [shapeCast_self]
  exact Ideal.ofBits_zero_f32

/-- A point adds its block, lane by lane, to whatever scratch row it starts from. -/
theorem point_apply (c : Dev nD) (t : Fin cfg0.N) (acc : S1x1x256.Idx → EReal) (i : S1x1x256.Idx) :
    step (F := Ideal) acc (iblk m c 0 t) i = acc i + addend m c t.val (i 2).val := by
  obtain ⟨u, w, k, rfl⟩ : ∃ (u w : Fin 1) (k : Fin 256), i = ix3 u w k := ⟨i 0, i 1, i 2, eq_ix3 i⟩
  show step (F := Ideal) acc (iblk m c 0 t) (ix3 u w k) = acc (ix3 u w k) + addend m c t.val k.val
  refine (step_apply acc (iblk m c 0 t) u w k).trans ?_
  unfold addend
  rw [block_col m c t k]

/-- The scratch row after the first point of a run, -/
theorem scr_first (c : Dev nD) (t : Fin cfg0.N) (h0 : t.val % 25 = 0) :
    (outsAt0 m c t.val t.isLt).2 = step k0_pay1 (iblk m c 0 t) := by
  rw [outsAt0_A m c t h0]; dsimp only
  exact scratch_first (F := Ideal) c (grid0.coords t) (ms0_0 t) (hs0_0 t) (ms0_1 t) (hs0_1 t)
    scM0_0 (Memref.isWhole_whole _) ((hcond0_0 t).mpr h0) (iblk m c 0 t)

/-- and after a later one, from what the point before left. -/
theorem scr_later (c : Dev nD) (t : Fin cfg0.N) (h0 : ¬t.val % 25 = 0) :
    (outsAt0 m c t.val t.isLt).2
      = step (outsAt0 m c (t.val - 1) (Nat.lt_of_le_of_lt (Nat.sub_le _ _) t.isLt)).2 (iblk m c 0 t) := by
  rw [outsAt0_B m c t h0]; dsimp only
  exact scratch_later (F := Ideal) c (grid0.coords t) (ms0_0 t) (hs0_0 t) (ms0_1 t) (hs0_1 t)
    scM0_0 (Memref.isWhole_whole _) (fun hh => h0 ((hcond0_0 t).mp hh)) (iblk m c 0 t)
    (outsAt0 m c (t.val - 1) (Nat.lt_of_le_of_lt (Nat.sub_le _ _) t.isLt)).2

/-- The output block after a point is a copy of the scratch row after it. -/
theorem out_eq_scr (c : Dev nD) (t : Fin cfg0.N) : (outsAt0 m c t.val t.isLt).1 = (outsAt0 m c t.val t.isLt).2 := by
  by_cases h0 : t.val % 25 = 0
  · rw [outsAt0_A m c t h0]; dsimp only
    exact (out_first (F := Ideal) c (grid0.coords t) (ms0_0 t) (hs0_0 t) (ms0_1 t) (hs0_1 t)
        scM0_0 (Memref.isWhole_whole _) ((hcond0_0 t).mpr h0) (iblk m c 0 t)).trans
      (scratch_first (F := Ideal) c (grid0.coords t) (ms0_0 t) (hs0_0 t) (ms0_1 t) (hs0_1 t)
        scM0_0 (Memref.isWhole_whole _) ((hcond0_0 t).mpr h0) (iblk m c 0 t)).symm
  · rw [outsAt0_B m c t h0]; dsimp only
    exact (out_later (F := Ideal) c (grid0.coords t) (ms0_0 t) (hs0_0 t) (ms0_1 t) (hs0_1 t)
        scM0_0 (Memref.isWhole_whole _) (fun hh => h0 ((hcond0_0 t).mp hh)) (iblk m c 0 t)
        (outsAt0 m c (t.val - 1) (Nat.lt_of_le_of_lt (Nat.sub_le _ _) t.isLt)).2).trans
      (scratch_later (F := Ideal) c (grid0.coords t) (ms0_0 t) (hs0_0 t) (ms0_1 t) (hs0_1 t)
        scM0_0 (Memref.isWhole_whole _) (fun hh => h0 ((hcond0_0 t).mp hh)) (iblk m c 0 t)
        (outsAt0 m c (t.val - 1) (Nat.lt_of_le_of_lt (Nat.sub_le _ _) t.isLt)).2).symm

/-- The scratch row after each point, as a function of the point's number; -/
abbrev scrAt (c : Dev nD) : (n : ℕ) → n < cfg0.N → S1x1x256.Idx → EReal := fun n h => (outsAt0 m c n h).2
/-- what the first point of a run leaves; -/
abbrev scrReset (c : Dev nD) : (n : ℕ) → n < cfg0.N → S1x1x256.Idx → EReal :=
  fun n h => step (F := Ideal) (k0_pay1 (F := Ideal)) (iblk m c 0 ⟨n, h⟩)
/-- what a later point makes of what it finds. -/
abbrev scrStep (c : Dev nD) : (n : ℕ) → n < cfg0.N → (S1x1x256.Idx → EReal) → S1x1x256.Idx → EReal :=
  fun n h acc => step (F := Ideal) acc (iblk m c 0 ⟨n, h⟩)

theorem scrAt_reset (c : Dev nD) (n : ℕ) (h : n < cfg0.N) (h0 : n % 25 = 0) : scrAt m c n h = scrReset m c n h :=
  scr_first m c ⟨n, h⟩ h0

theorem scrAt_step (c : Dev nD) (n : ℕ) (h : n + 1 < cfg0.N) (h0 : ¬(n + 1) % 25 = 0) :
    scrAt m c (n + 1) h = scrStep m c (n + 1) h (scrAt m c n (Nat.lt_of_succ_lt h)) :=
  scr_later m c ⟨n + 1, h⟩ h0

theorem scrReset_apply (c : Dev nD) (n : ℕ) (h : n < cfg0.N) (j : S1x1x256.Idx) :
    scrReset m c n h j = 0 + addend m c n (j 2).val := by
  show step (F := Ideal) (k0_pay1 (F := Ideal)) (iblk m c 0 ⟨n, h⟩) j = 0 + addend m c n (j 2).val
  rw [point_apply m c ⟨n, h⟩ (k0_pay1 (F := Ideal)) j, zero_row]

theorem scrStep_apply (c : Dev nD) (n : ℕ) (h : n < cfg0.N) (acc : S1x1x256.Idx → EReal) (j : S1x1x256.Idx) :
    scrStep m c n h acc j = acc j + addend m c n (j 2).val :=
  point_apply m c ⟨n, h⟩ acc j

/-- THE RUNNING SUM: after point `t` the scratch row holds zero plus the blocks of its run so far — points
    `25 (t / 25) … t` — lane by lane. (The library's fold over a run of points that resets at the multiples of 25.) -/
theorem scr_closed (c : Dev nD) (t : ℕ) (ht : t < cfg0.N) (i : S1x1x256.Idx) :
    (outsAt0 m c t ht).2 i = 0 + ∑ s ∈ range (t % 25 + 1), addend m c (25 * (t / 25) + s) (i 2).val := by
  have h' : 25 * (t / 25) + t % 25 < cfg0.N := by rw [Nat.div_add_mod]; exact ht
  have hle : t % 25 ≤ 24 := by omega
  have e : scrAt m c t ht = Pipeline.accAt (scrReset m c) (scrStep m c) (25 * (t / 25)) (t % 25) h' :=
    Pipeline.eq_accAt_of_mod (scrAt m c) 25 (scrReset m c) (scrStep m c) (scrAt_reset m c) (scrAt_step m c)
      (by decide) t ht h'
  show scrAt m c t ht i = _
  rw [e]
  exact Pipeline.accAt_add_apply (scrReset m c) (scrStep m c) (fun _ => 0) (fun n j => addend m c n (j 2).val)
    (25 * (t / 25)) 24 (fun h j => scrReset_apply m c _ h j) (fun n h acc j _ _ => scrStep_apply m c n h acc j)
    (t % 25) hle h' i

/-- The result of the region: row `c'`, lane `k`, holds zero plus the 25 blocks of core `c'`, in lane `k`. -/
def partials (c : Dev nD) (i : S2x1x256.Idx) : EReal :=
  0 + ∑ s ∈ range 25, addend m c (25 * (i 0).val + s) (i 2).val

/-- WHAT A WRITE-BACK POINT WRITES (the last point of a core's run) is its block of `partials`. -/
theorem flushed_eq (c : Dev nD) (t : Fin cfg0.N) (hf : (cfg0.win 1).flush t = true) :
    (dats m 0 c).flushed 1 t = ((cfg0.win 1).blk t).view.read (Elt Ideal) (partials m c) := by
  have h24 : t.val % 25 = 24 := (flush0_1 t).mp hf
  obtain ⟨e0, e1, e2⟩ := out_idx t
  show (cfg0.win 1).cut (grid0.coords t) ((dats m 0 c).after 1 t) = _
  rw [after0_1, out_eq_scr]
  funext y
  rw [View.read_apply]
  have y0 : (y 0).val < 1 := (y 0).isLt
  refine (scr_closed m c t.val t.isLt ((cfg0.win 1).xinj (grid0.coords t) y)).trans ?_
  rw [h24]
  have a0 : ((((cfg0.win 1).blk t).view.emb y) 0).val = t.val / 25 := by
    show win0_1.index t (0 : Fin 3) * 1 + 1 * (y 0).val = _
    rw [e0]; omega
  have a2 : ((((cfg0.win 1).blk t).view.emb y) 2).val = (y 2).val := by
    show win0_1.index t (2 : Fin 3) * 256 + 1 * (y 2).val = _
    rw [e2]; omega
  unfold partials
  rw [a0, a2]
  rfl

/-- An index of the result is in point `t`'s output block iff each coordinate is in the block's range. -/
theorem mem_blk (t : Fin cfg0.N) (i : S2x1x256.Idx) :
    i ∈ ((cfg0.win 1).blk t).view.set ↔ ∀ a : Fin 3, win0_1.index t a * S1x1x256.size a ≤ (i a).val
      ∧ (i a).val < win0_1.index t a * S1x1x256.size a + S1x1x256.size a := by
  show i ∈ ((View.whole main_v0).slice (win0_1.rect t)).set ↔ _
  rw [View.set_slice_whole, Rect.mem_set_unit]
  exact Iff.rfl

/-- Row `c'` of the result is written back by the last point of core `c'`'s run. -/
theorem covered (c : Dev nD) (i : S2x1x256.Idx) :
    ∃ t : Fin cfg0.N, (cfg0.win 1).flush t = true ∧ i ∈ ((cfg0.win 1).blk t).view.set := by
  have hN : cfg0.N = 50 := N_0
  have i0 : (i 0).val < 2 := (i 0).isLt
  have i1 : (i 1).val < 1 := (i 1).isLt
  have i2 : (i 2).val < 256 := (i 2).isLt
  obtain ⟨t, ht⟩ : ∃ t : Fin cfg0.N, t.val = 25 * (i 0).val + 24 := ⟨⟨25 * (i 0).val + 24, by omega⟩, rfl⟩
  obtain ⟨e0, e1, e2⟩ := out_idx t
  refine ⟨t, (flush0_1 t).mpr (by omega), ?_⟩
  rw [mem_blk]
  intro a
  match a with
  | ⟨0, _⟩ =>
    show win0_1.index t (0 : Fin 3) * 1 ≤ (i 0).val ∧ (i 0).val < win0_1.index t (0 : Fin 3) * 1 + 1
    rw [e0]; omega
  | ⟨1, _⟩ =>
    show win0_1.index t (1 : Fin 3) * 1 ≤ (i 1).val ∧ (i 1).val < win0_1.index t (1 : Fin 3) * 1 + 1
    rw [e1]; omega
  | ⟨2, _⟩ =>
    show win0_1.index t (2 : Fin 3) * 256 ≤ (i 2).val ∧ (i 2).val < win0_1.index t (2 : Fin 3) * 256 + 256
    rw [e2]; omega

/-- THE RESULT OF THE REGION after the run is `partials`. -/
theorem final_partials (c : Dev nD) : (dats m 0 c).arrAt 1 cfg0.N = partials m c :=
  (dats m 0 c).arrAt_eq_of_cover 1 (partials m c) (flushed_eq m c) (covered c)

end Cert.KernelIdeal.Pool

end
-- ==== Proof.PoolTail.lean ====
/-
  The pooling kernel's host lines after the region, over the extended reals, and the kernel's run read back.

  The region leaves the `[2, 1, 256]` array of per-core partial row sums. The host then views it as `[2, 256]`,
  adds the two rows lane by lane (from zero), and contracts the summed row with `W` transposed:
  entry `o` of the result is `∑ₖ (0 + ∑_c' partial c' k) · W o k`. Each line is read at an index: the cast keeps the
  row-major position, the transpose swaps the two coordinates, the contraction is a sum over its one contracted axis.
-/
import proofs.«170874_j66735201845341_2_alg».proof.Proof.PoolAccum
import Idealize.ShloMosaic.Lib.StableHlo.Run

set_option maxRecDepth 16384

noncomputable section

namespace Cert.KernelIdeal.Pool

open Idealize.ShloMosaic Idealize.ShloMosaic.TcCoe Idealize.SL.Sem Idealize.ShloMosaic.ValueIdx
open Idealize.ShloMosaic.Pipeline (Dat)
open Cert.KernelIdeal Cert.KernelIdeal.Gen
open Finset

/-- The kernel's one contraction: `[1, 256] × [256, 128]` over the 256. -/
abbrev dotK : DotDims S1x256 S256x128 S1x128 := dot_S1x256_S256x128_S1x128_1_0_0_1_n_n

/-- The two partial rows added, from zero. -/
def summed (p : FVec Ideal S2x1x256 .f32) : FVec Ideal S256 .f32 :=
  Host.reduceAdd (F := Ideal) (shapeCast S2x256 p shapeCasts_S2x1x256_S2x256) (constant (F := Ideal) S_ .f32 0x00000000#32)
    reducesTo_S2x256_S256_d0 h_S_

/-- The host lines after the region, as one function of the region's result and of `W`. -/
def tail (p : FVec Ideal S2x1x256 .f32) (W : FVec Ideal S128x256 .f32) : FVec Ideal S1x128 .f32 :=
  Host.dotGeneral (F := Ideal) dotK (some .fp32)
    (broadcastInDim S1x256 ![1] bcast_S256_S1x256_1 (summed p))
    (transpose S256x128 [1, 0] W transposes_S128x256_S256x128_1_0)

/-- Lane `k` of the summed row. -/
theorem summed_apply (p : FVec Ideal S2x1x256 .f32) (k : Fin 256) :
    summed p (ix1 k) = 0 + ∑ c' : Fin 2, p (ix3 c' (0 : Fin 1) k) := by
  unfold summed
  simp only [Host.reduceAdd, Ideal.hostReduceAdd_def]
  rw [Ideal.hostReduceAdd_single reducesTo_S2x256_S256_d0 (by decide)]
  refine congr (congrArg HAdd.hAdd Ideal.ofBits_zero_f32) (Finset.sum_congr rfl fun c' _ => ?_)
  exact shapeCast_apply p _ _ (ix3 c' (0 : Fin 1) k) (by
    rw [Shape.rowMajor_val_three, Shape.rowMajor_val_two]
    show (c'.val * 1 + 0) * 256 + k.val = c'.val * 256 + k.val
    omega)

/-- The summed row as a `[1, 256]` matrix. -/
theorem row_apply (y : FVec Ideal S256 .f32) (u : Fin 1) (k : Fin 256) :
    broadcastInDim S1x256 ![1] bcast_S256_S1x256_1 y (ix2 u k) = y (ix1 k) :=
  broadcastInDim_apply _ bcast_S256_S1x256_1 y (ix2 u k) (ix1 k) (fun a => match a with
    | ⟨0, _⟩ => by show k.val = if (256 : Nat) = 1 then 0 else k.val; rw [if_neg (by decide)])

theorem lhs_0 (i : S1x128.Idx) (q : dotK.contr.Idx) : (dotK.lhsIdx i q 0).val = (i 0).val := by
  unfold DotDims.lhsIdx
  rw [dif_neg (show ¬(0 : Fin S1x256.rank) ∈ dotK.lhsBatch by decide),
    dif_pos (show (0 : Fin S1x256.rank) ∈ dotK.lhsNonContracting by decide)]
  rfl
theorem lhs_1 (i : S1x128.Idx) (q : dotK.contr.Idx) : (dotK.lhsIdx i q 1).val = (q ⟨0, by decide⟩).val :=
  dotK.lhsIdx_val_of_single rfl i q
theorem rhs_0 (i : S1x128.Idx) (q : dotK.contr.Idx) : (dotK.rhsIdx i q 0).val = (q ⟨0, by decide⟩).val :=
  dotK.rhsIdx_val_of_single rfl i q
theorem rhs_1 (i : S1x128.Idx) (q : dotK.contr.Idx) : (dotK.rhsIdx i q 1).val = (i 1).val := by
  unfold DotDims.rhsIdx
  rw [dif_neg (show ¬(1 : Fin S256x128.rank) ∈ dotK.rhsBatch by decide),
    dif_pos (show (1 : Fin S256x128.rank) ∈ dotK.rhsNonContracting by decide)]
  rfl

/-- THE TAIL AT AN INDEX: entry `o` is the summed row contracted with row `o` of `W`. -/
theorem tail_apply (p : FVec Ideal S2x1x256 .f32) (W : FVec Ideal S128x256 .f32) (u : Fin 1) (o : Fin 128) :
    tail p W (ix2 u o) = ∑ k : Fin 256, (0 + ∑ c' : Fin 2, p (ix3 c' (0 : Fin 1) k)) * W (ix2 o k) := by
  unfold tail
  simp only [Host.dotGeneral]
  rw [Ideal.dotGeneral_apply, ← Equiv.sum_comp (ValueIdx.contrEquiv1 dotK 256 rfl rfl).symm]
  refine Finset.sum_congr rfl fun k _ => ?_
  have hk := ValueIdx.contrEquiv1_symm_val dotK 256 rfl rfl k
  have el : dotK.lhsIdx (ix2 u o) ((ValueIdx.contrEquiv1 dotK 256 rfl rfl).symm k) = ix2 u k := funext fun a => Fin.ext (by
    match a with
    | ⟨0, _⟩ => exact lhs_0 _ _
    | ⟨1, _⟩ => exact (lhs_1 _ _).trans hk)
  have er : dotK.rhsIdx (ix2 u o) ((ValueIdx.contrEquiv1 dotK 256 rfl rfl).symm k) = ix2 k o := funext fun a => Fin.ext (by
    match a with
    | ⟨0, _⟩ => exact (rhs_0 _ _).trans hk
    | ⟨1, _⟩ => exact rhs_1 _ _)
  rw [el, er, row_apply, summed_apply, transpose_ix2_apply]

variable (m : (ℓ : Loc nD τ sig) → Buf (Elt Ideal) ℓ) (ρ : Dev nD → PrngReg)

/-- What the host lines leave in the program's result: the tail of the partial sums and of `W` as launched. -/
theorem tail_result (c : Dev nD) :
    Pipeline.afterTail₀ cfgs (dats m) 0 (V0 m) [hostOps1] c main_v5
      = tail (partials m c) (m ((c : Thread nD τ).loc main_arg1)) := by
  unfold Pipeline.afterTail₀
  show StableHlo.after hostOps1 _ (Proc.devRef .tc main_v5) = _
  after_results
  have e0 : Pipeline.withArrays (cfgs 0).spec c (V0 m c) (fun w => (dats m 0 c).arrAt w (cfgs 0).N)
      (Proc.devRef .tc main_v0) = partials m c :=
    (Pipeline.withArrays_arr spec0 launch0.win.arr_inj c _ _ 1).trans (final_partials m c)
  have e1 : Pipeline.withArrays (cfgs 0).spec c (V0 m c) (fun w => (dats m 0 c).arrAt w (cfgs 0).N)
      (Proc.devRef .tc main_arg1) = m ((c : Thread nD τ).loc main_arg1) :=
    (Pipeline.withArrays_of_ne _ c _ _ main_arg1
      (by exact (by decide : ∀ w, Pipeline.arrRef spec0 w ≠ main_arg1))).trans (V_main_arg1 m c)
  rw [e0, e1]
  rfl

/-- THE KERNEL'S RUN, READ: every weakly fair execution ends with the result at the tail of the partial sums, and
    both arguments as launched. -/
theorem run : θ_run defs (onTc (τ := τ) (main (F := Ideal))) ⟨m, fun _ => 0, ρ⟩ fun r => ∀ c : Dev nD,
      r.2.mem ((c : Thread nD τ).loc main_v5) = tail (partials m c) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v5 (Pipeline.mem_restRefs_of main_v5 (by decide) (by decide))).trans (tail_result m c),
        ((h c).1 0).trans (((dats m 0 c).arrAt_in 0 rfl _).trans ((A_eq m c 0).trans (V_main_arg0 m c))),
        ((h c).2 main_arg1 (Pipeline.mem_restRefs_of main_arg1 (by decide) (by decide))).trans
          (W_main_arg1 m (dats m) c)⟩)
    (run_main m ρ)

/-- Lane `k` of the summed row is the whole of lane `k` of `x`: the zeros drop out and the two halves of 25
    blocks of ten thousand rows are the five hundred thousand rows. -/
theorem colsum_eq (c : Dev nD) (k : Fin 256) :
    0 + ∑ c' : Fin 2, partials m c (ix3 c' (0 : Fin 1) k) = ∑ r : Fin 500000, X m c (ix2 r k) := by
  rw [zero_add, sum_col (X m c) k, ← PoolAlgebra.sum_halves_blocks (fun r => ext (X m c) r k.val),
    Finset.sum_range (fun c' => ∑ s ∈ range 25, ∑ r ∈ range 10000, ext (X m c) ((25 * c' + s) * 10000 + r) k.val)]
  refine Finset.sum_congr rfl fun c' _ => ?_
  unfold partials addend
  exact zero_add _

/-- THE KERNEL'S RESULT AT AN INDEX: entry `o` is the summed rows of `x` contracted with row `o` of `W`. -/
theorem kernel_entry (c : Dev nD) (W : FVec Ideal S128x256 .f32) (u : Fin 1) (o : Fin 128) :
    tail (partials m c) W (ix2 u o) = ∑ k : Fin 256, (∑ r : Fin 500000, X m c (ix2 r k)) * W (ix2 o k) := by
  rw [tail_apply]
  exact Finset.sum_congr rfl fun k _ => congrArg (· * W (ix2 o k)) (colsum_eq m c k)

end Cert.KernelIdeal.Pool

end
-- ==== Proof.PoolRef.lean ====
/-
  The reference at an index, over the extended reals.

  The reference contracts every row of `x` with every row of `W`, sums the `[500000, 128]` products over the rows
  (from zero) and lays the 128 sums out as a `[1, 128]` row: entry `o` is `0 + ∑ᵣ ∑ₖ x r k · W o k`. The
  imported module reads each of the reference's operations at an index; here the three readings are chained and
  their composed index maps written out by coordinates.
-/
import proofs.«170874_j66735201845341_2_alg».proof.Proof.Gen.ReferenceIdeal.Read
import Idealize.ShloMosaic.Lib.ValueIdx
import Idealize.ShloMosaic.PureOps.Ideal.Laws

noncomputable section

namespace Cert.ReferenceIdeal.Pool

open Idealize.ShloMosaic Idealize.ShloMosaic.ValueIdx
open Cert.ReferenceIdeal Cert.ReferenceIdeal.Gen Cert.ReferenceIdeal.Read

/-- Entry `o` of the reference's result. -/
theorem ref_apply (x : FVec Ideal S500000x256 .f32) (W : FVec Ideal S128x256 .f32) (u : Fin 1) (o : Fin 128) :
    val_main_v2 (F := Ideal) x W (ix2 u o) = 0 + ∑ r : Fin 500000, ∑ k : Fin 256, x (ix2 r k) * W (ix2 o k) := by
  rw [val_main_v2_apply, val_main_v1_apply]
  refine congr (congrArg HAdd.hAdd Ideal.ofBits_zero_f32) (Finset.sum_congr rfl fun r _ => ?_)
  rw [val_main_v0_apply]
  refine Finset.sum_congr rfl fun k _ => ?_
  have el : lidx_main_v0 (idx_main_v1 (idx_main_v2 (ix2 u o)) r) k = ix2 r k :=
    funext fun a => Fin.ext (by match a with | ⟨0, _⟩ => rfl | ⟨1, _⟩ => rfl)
  have er : ridx_main_v0 (idx_main_v1 (idx_main_v2 (ix2 u o)) r) k = ix2 o k :=
    funext fun a => Fin.ext (by match a with | ⟨0, _⟩ => rfl | ⟨1, _⟩ => rfl)
  rw [el, er]

end Cert.ReferenceIdeal.Pool

end
-- ==== Proof.PoolFinite.lean ====
/-
  What the precondition gives: every entry of `x` and of `W` is a real number.

  The precondition says, of each input, that all its entries have absolute value below `+∞` (the word
  `0x7F800000`, which at the ideal instance is the extended real `⊤`), and takes the conjunction. An extended real
  whose absolute value `max a (-a)` is below `⊤` is neither `⊤` nor `⊥`: it is a real number.
-/
import proofs.«170874_j66735201845341_2_alg».proof.Proof.Gen.Pre_finite_inputs
import Idealize.ShloMosaic.Lib.ReduceAll
import Idealize.ShloMosaic.Lib.ValueIdx
import Idealize.ShloMosaic.PureOps.Ideal.Laws

noncomputable section

namespace Cert.PoolFinite

open Idealize.ShloMosaic Cert.Pre_finite_inputs Cert.Pre_finite_inputs.Gen

instance : Subsingleton S_.Idx := ⟨fun a b => funext fun d => d.elim0⟩

/-- The word of `+∞` is `⊤`. -/
theorem ofBits_inf : Ideal.ofBits .f32 0x7F800000#32 = (⊤ : EReal) := by
  simp [Ideal.ofBits, Ideal.ieee]

/-- An extended real whose absolute value compares below `+∞` is a real number. -/
theorem real_of_abs_lt_inf (a : EReal)
    (h : Ideal.cmp .olt (max a (-a)) (Ideal.ofBits .f32 0x7F800000#32) = 1#1) : ∃ r : ℝ, a = (r : EReal) := by
  rw [ofBits_inf] at h
  have hb : ∀ b : Bool, BitVec.ofBool b = 1#1 → b = true := by decide
  have h' : max a (-a) < ⊤ := of_decide_eq_true (hb _ h)
  induction a using EReal.rec with
  | bot => simp at h'
  | coe r => exact ⟨r, rfl⟩
  | top => simp at h'

/-- The precondition's two conjuncts, read entry by entry. -/
theorem real_of_pre (x : FVec Ideal S500000x256 .f32) (w : FVec Ideal S128x256 .f32)
    (h : fn (F := Ideal) x w = fun _ => 1#1) :
    (∀ i, ∃ r : ℝ, x i = (r : EReal)) ∧ (∀ i, ∃ r : ℝ, w i = (r : EReal)) := by
  have h0 := congrFun h ValueIdx.ix0
  dsimp only [fn] at h0
  obtain ⟨h1, h2⟩ := IntOp.andi_eq_one.1 h0
  refine ⟨fun i => ?_, fun i => ?_⟩
  · exact real_of_abs_lt_inf (x i) (Host.reduce_andi_all _ _ _ _ _ h1 i)
  · exact real_of_abs_lt_inf (w i) (Host.reduce_andi_all _ _ _ _ _ h2 i)

end Cert.PoolFinite

end
-- ==== Proof.lean ====
/-
  Pooling a linear projection: `h = ∑ᵣ (xᵣ · Wᵀ)` computed as `(∑ᵣ xᵣ) · Wᵀ`.

  The reference projects every one of the 500000 rows of `x` through `W` (`[128, 256]`) and sums the projected
  rows: entry `o` of its `[1, 128]` result is `0 + ∑ᵣ ∑ₖ x r k · W o k`. The kernel never projects a row: on a
  2 × 25 grid it adds up the rows of `x` — each core keeps a 256-lane running sum in a scratch row over its 25 blocks
  of ten thousand rows, a block being added as ten chunks of a thousand rows — and writes each core's sum out once;
  the host then adds the two cores' sums and contracts the one summed row with `W` transposed: entry `o` is
  `∑ₖ (∑ᵣ x r k) · W o k` once the zeros the partial sums start from are dropped and the blocks are put back
  together, which holds on all extended reals.

  The two agree by distributivity, `(∑ᵣ x r k) · w = ∑ᵣ (x r k · w)`, and an exchange of the two sums. On the
  extended reals distributivity fails at the infinities, so this is where the precondition is used: every entry of
  `x` and of `W` is a real number, and the identity is the one of the real numbers.

  The three frame conjuncts are the two kernels' frames and the reference's run with its result dropped; the ideal
  pass rewrote nothing, so the kernel's idealization is the kernel's own text and that conjunct is trivial.
-/
import proofs.«170874_j66735201845341_2_alg».proof.Defs
import proofs.«170874_j66735201845341_2_alg».proof.Proof.Gen.Kernel
import proofs.«170874_j66735201845341_2_alg».proof.Proof.Gen.Kernel.Skeleton
import proofs.«170874_j66735201845341_2_alg».proof.Proof.Gen.Kernel.Launch
import proofs.«170874_j66735201845341_2_alg».proof.Proof.Gen.Kernel.Points
import proofs.«170874_j66735201845341_2_alg».proof.Proof.Gen.Kernel.Frame
import proofs.«170874_j66735201845341_2_alg».proof.Proof.Gen.KernelIdeal
import proofs.«170874_j66735201845341_2_alg».proof.Proof.Gen.KernelIdeal.Skeleton
import proofs.«170874_j66735201845341_2_alg».proof.Proof.Gen.KernelIdeal.Launch
import proofs.«170874_j66735201845341_2_alg».proof.Proof.Gen.KernelIdeal.Points
import proofs.«170874_j66735201845341_2_alg».proof.Proof.Gen.KernelIdeal.Frame
import proofs.«170874_j66735201845341_2_alg».proof.Proof.Gen.ReferenceIdeal
import proofs.«170874_j66735201845341_2_alg».proof.Proof.Gen.ReferenceIdeal.Run
import proofs.«170874_j66735201845341_2_alg».proof.Proof.Gen.ReferenceIdeal.Read
import proofs.«170874_j66735201845341_2_alg».proof.Proof.Gen.Pre_finite_inputs
import proofs.«170874_j66735201845341_2_alg».proof.Proof.PoolTail
import proofs.«170874_j66735201845341_2_alg».proof.Proof.PoolRef
import proofs.«170874_j66735201845341_2_alg».proof.Proof.PoolFinite
import Idealize.ShloMosaic.Adequacy
import Idealize.ShloMosaic.Init

noncomputable section

namespace Cert.Proof

open Idealize.ShloMosaic Idealize.ShloMosaic.TcCoe Idealize.SL.Sem Idealize.ShloMosaic.ValueIdx

/-- For real entries the kernel's result and the reference's are one function of the arguments: entry `o` of
    either is `∑ₖ (∑ᵣ x r k) · W o k = ∑ᵣ ∑ₖ x r k · W o k`. -/
theorem result_eq (m : (ℓ : Loc Cert.KernelIdeal.nD Cert.KernelIdeal.τ Cert.KernelIdeal.sig) → Buf (Elt Ideal) ℓ)
    (c : Dev Cert.KernelIdeal.nD) (W : FVec Ideal Cert.KernelIdeal.S128x256 .f32)
    (hx : ∀ i, ∃ r : ℝ, Cert.KernelIdeal.Pool.X m c i = (r : EReal)) (hW : ∀ i, ∃ r : ℝ, W i = (r : EReal)) :
    Cert.KernelIdeal.Pool.tail (Cert.KernelIdeal.Pool.partials m c) W
      = Cert.ReferenceIdeal.Read.val_main_v2 (F := Ideal) (Cert.KernelIdeal.Pool.X m c) W := by
  funext i
  obtain ⟨u, o, rfl⟩ : ∃ (u : Fin 1) (o : Fin 128), i = ix2 u o := ⟨i 0, i 1, eq_ix2 i⟩
  rw [Cert.KernelIdeal.Pool.kernel_entry, Cert.ReferenceIdeal.Pool.ref_apply, zero_add]
  exact Cert.PoolAlgebra.sum_mul_eq_sum_sum_mul (fun r k => Cert.KernelIdeal.Pool.X m c (ix2 r k))
    (fun k => W (ix2 o k)) (fun r k => hx _) (fun k => hW _)

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the ideal instance the kernel's result ends at the host tail of the per-core partial sums, the reference's at
    its composed term of arguments that agree; for the real entries the precondition gives, the two are equal. -/
theorem algebraic : Cert.algebraic_KernelIdeal_ReferenceIdeal := by
  intro m ρ m' ρ' hpre hagree
  refine ⟨fun c => Cert.KernelIdeal.Pool.tail (Cert.KernelIdeal.Pool.partials m c)
      (m ((c.tc : Thread Cert.KernelIdeal.nD Cert.KernelIdeal.τ).loc Cert.KernelIdeal.main_arg1)),
    Cert.KernelIdeal.Pool.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v2_eq]
  obtain ⟨hx, hW⟩ := Cert.PoolFinite.real_of_pre _ _ (hpre c)
  exact (result_eq m c _ hx hW).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
